-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S8x2048x2 : Shape := ⟨3, ![8, 2048, 2]⟩
abbrev S8x2048x1 : Shape := ⟨3, ![8, 2048, 1]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_
  bcast_S_S8x2048x1 : S_.BroadcastsInDim S8x2048x1 (![] : Fin 0 → Fin S8x2048x1.rank)
  reducesTo_S8x2048x1_S_d0_1_2 : S8x2048x1.ReducesTo [0, 1, 2] S_

variable [Facts]

def fn {F : FTy → Type} [FloatOps F] (main_arg0 : FVec F S4096x2 .f32) (main_arg1 : FVec F S8x2048x2 .f32) (main_arg2 : FVec F S8x2048x1 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S8x2048x2 .f32 := Host.absf main_arg1
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  let main_v9 : FVec F S8x2048x1 .f32 := Host.absf main_arg2
  let main_cst_2 : FVec F S_ .f32 := constant S_ .f32 0x7F800000#32
  let main_v10 : FVec F S8x2048x1 .f32 := broadcastInDim S8x2048x1 ![] bcast_S_S8x2048x1 main_cst_2
  let main_v11 : IVec S8x2048x1 1 := cmpf .olt main_v9 main_v10
  let main_c_3 : IVec S_ 1 := constantI S_ 1 1#1
  let main_v12 : IVec S_ 1 := (fun x v => Host.reduce IntOp.andi x v reducesTo_S8x2048x1_S_d0_1_2 h_S_) main_v11 main_c_3
  let main_v13 : IVec S_ 1 := andi main_v8 main_v12
  main_v13
-- ==== Kernel.lean ====
abbrev S4096x2 : Shape := ⟨2, ![4096, 2]⟩
abbrev S8x2048x2 : Shape := ⟨3, ![8, 2048, 2]⟩
abbrev S8x2048x1 : Shape := ⟨3, ![8, 2048, 1]⟩
abbrev S_ : Shape := ⟨0, ![]⟩
abbrev S8x2048 : Shape := ⟨2, ![8, 2048]⟩
abbrev S2x4096 : Shape := ⟨2, ![2, 4096]⟩
abbrev S4096 : Shape := ⟨1, ![4096]⟩
abbrev S1x4096 : Shape := ⟨2, ![1, 4096]⟩
abbrev S8x2048x4096 : Shape := ⟨3, ![8, 2048, 4096]⟩
abbrev S2x1024 : Shape := ⟨2, ![2, 1024]⟩
abbrev S1x1024 : Shape := ⟨2, ![1, 1024]⟩
abbrev S1x1024x2 : Shape := ⟨3, ![1, 1024, 2]⟩
abbrev S1x1024x1 : Shape := ⟨3, ![1, 1024, 1]⟩
abbrev S1x1024x1024 : Shape := ⟨3, ![1, 1024, 1024]⟩
abbrev S1024x2 : Shape := ⟨2, ![1024, 2]⟩
abbrev S1024x1 : Shape := ⟨2, ![1024, 1]⟩
abbrev S1024x1024 : Shape := ⟨2, ![1024, 1024]⟩

abbrev nBuf : Space → Nat
  | .hbm => 28
  | .vmem => 12
  | .smem => 0
  | _ => 0

abbrev bufTy : (tb : Table) → Fin (tcTables nBuf tb) → BufTy
  | .hbm, ⟨0, _⟩ => ⟨S4096x2, .f32⟩
  | .hbm, ⟨1, _⟩ => ⟨S8x2048x2, .f32⟩
  | .hbm, ⟨2, _⟩ => ⟨S8x2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x2, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S2x4096, .f32⟩
  | .hbm, ⟨23, _⟩ => ⟨S4096x2, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S8x2048x4096, .f32⟩
  | .local _ .vmem, ⟨0, _⟩ => ⟨S2x1024, .f32⟩
  | .local _ .vmem, ⟨1, _⟩ => ⟨S2x1024, .f32⟩
  | .local _ .vmem, ⟨2, _⟩ => ⟨S1x1024, .f32⟩
  | .local _ .vmem, ⟨3, _⟩ => ⟨S1x1024, .f32⟩
  | .local _ .vmem, ⟨4, _⟩ => ⟨S1x1024x2, .f32⟩
  | .local _ .vmem, ⟨5, _⟩ => ⟨S1x1024x2, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1024, .f32⟩
  | .local _ .vmem, ⟨11, _⟩ => ⟨S1x1024x1024, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S_S8x2048x1 : S_.BroadcastsInDim S8x2048x1 (![] : Fin 0 → Fin S8x2048x1.rank)
  reducesTo_S8x2048x2_S8x2048_d2 : S8x2048x2.ReducesTo [2] S8x2048
  h_S_ : 0 < S_.numel
  bcast_S8x2048_S8x2048x1_0_1 : S8x2048.BroadcastsInDim S8x2048x1 (![0, 1] : Fin 2 → Fin S8x2048x1.rank)
  transposes_S4096x2_S2x4096_1_0 : S4096x2.Transposes [1, 0] S2x4096
  reducesTo_S4096x2_S4096_d1 : S4096x2.ReducesTo [1] S4096
  bcast_S4096_S1x4096_1 : S4096.BroadcastsInDim S1x4096 (![1] : Fin 1 → Fin S1x4096.rank)
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x2_S2x1024_S1024x1024_1_0_0_1_n_n_wf : DotDims.WF S1024x2 S2x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024.size a ≤ S2x4096.size a
  hwx0_0 : ∀ i : grid0.Coords, EltTy.bits .f32 = 32 ∨ (Rect.block (s := S2x4096) S2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2.size a ≤ S8x2048x2.size a
  hwx0_2 : ∀ i : grid0.Coords, EltTy.bits .f32 = 32 ∨ (Rect.block (s := S8x2048x2) S1x1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S8x2048x1.size a
  hwx0_3 : ∀ i : grid0.Coords, EltTy.bits .f32 = 32 ∨ (Rect.block (s := S8x2048x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x2048x1.size a
  hwx0_4 : ∀ i : grid0.Coords, EltTy.bits .f32 = 32 ∨ (Rect.block (s := S8x2048x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x4096.size a
  hwx0_5 : ∀ i : grid0.Coords, EltTy.bits .f32 = 32 ∨ (Rect.block (s := S8x2048x4096) S1x1024x1024.size (cc0_transform_5 i) (hinb0_5 i)).WholeWords (EltTy.packing .f32)

variable [Facts₀]

def dot_S1024x2_S2x1024_S1024x1024_1_0_0_1_n_n : DotDims S1024x2 S2x1024 S1024x1024 where
  lhsContracting := [1]
  rhsContracting := [0]
  lhsNonContracting := [0]
  rhsNonContracting := [1]
  lhsBatch := []
  rhsBatch := []
  wf := dot_S1024x2_S2x1024_S1024x1024_1_0_0_1_n_n_wf

abbrev win0_0 : Pipeline.Window sig grid0 :=
  Pipeline.Window.ofSpec (Memref.whole main_v9) S2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2 : Shape := ⟨2, ![4096, 2]⟩
abbrev S8x2048x2 : Shape := ⟨3, ![8, 2048, 2]⟩
abbrev S8x2048x1 : Shape := ⟨3, ![8, 2048, 1]⟩
abbrev S_ : Shape := ⟨0, ![]⟩
abbrev S4096 : Shape := ⟨1, ![4096]⟩
abbrev S8x2048 : Shape := ⟨2, ![8, 2048]⟩
abbrev S8x2048x4096 : Shape := ⟨3, ![8, 2048, 4096]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S8x2048x2, .f32⟩
  | .hbm, ⟨2, _⟩ => ⟨S8x2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S4096x2, .f32⟩
  | .hbm, ⟨12, _⟩ => ⟨S_, .f32⟩
  | .hbm, ⟨13, _⟩ => ⟨S4096, .f32⟩
  | .hbm, ⟨14, _⟩ => ⟨S8x2048x2, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x4096, .f32⟩
  | .hbm, ⟨19, _⟩ => ⟨S1x1x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S_, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S_, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x4096, .f32⟩
  | .hbm, ⟨36, _⟩ => ⟨S8x2048x4096, .f32⟩
  | .hbm, ⟨37, _⟩ => ⟨S8x2048x4096, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  bcast_S_S8x2048x1 : S_.BroadcastsInDim S8x2048x1 (![] : Fin 0 → Fin S8x2048x1.rank)
  reducesTo_S4096x2_S4096_d1 : S4096x2.ReducesTo [1] S4096
  h_S_ : 0 < S_.numel
  reducesTo_S8x2048x2_S8x2048_d2 : S8x2048x2.ReducesTo [2] S8x2048
  bcast_S8x2048_S8x2048x1_0_1 : S8x2048.BroadcastsInDim S8x2048x1 (![0, 1] : Fin 2 → Fin S8x2048x1.rank)
  bcast_S4096_S1x1x4096_2 : S4096.BroadcastsInDim S1x1x4096 (![2] : Fin 1 → Fin S1x1x4096.rank)
  bcast_S8x2048x1_S8x2048x4096_0_1_2 : S8x2048x1.BroadcastsInDim S8x2048x4096 (![0, 1, 2] : Fin 3 → Fin S8x2048x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x2_S4096x2_S8x2048x4096_2_1_01_0_n_n_wf : DotDims.WF S8x2048x2 S4096x2 S8x2048x4096 [2] [1] [0, 1] [0] [] []

variable [Facts₀]

def dot_S8x2048x2_S4096x2_S8x2048x4096_2_1_01_0_n_n : DotDims S8x2048x2 S4096x2 S8x2048x4096 where
  lhsContracting := [2]
  rhsContracting := [1]
  lhsNonContracting := [0, 1]
  rhsNonContracting := [0]
  lhsBatch := []
  rhsBatch := []
  wf := dot_S8x2048x2_S4096x2_S8x2048x4096_2_1_01_0_n_n_wf

class Facts : Prop extends Facts₀ where

variable [Facts]
-- ==== Proof.RbfScalar.lean ====
/-
  The extended-real facts in which the two radial-basis programs meet.

  Both compute `exp(−d / s)`, where `d = max(‖μ‖² + ‖z‖² − 2⟨μ, z⟩, 0)` is the clamped squared distance of a
  token position `μ` from a grid point `z`, and `s = 2·w·w` with `w` the width `σ` clamped into `[0.1, 10]`.
  One program divides `−d` by `s`; the other multiplies `d` by the precomputed `(−1) / s`.

  On the extended reals a quotient by a NONZERO `s` is the product with `s⁻¹`, and a sign moves freely through a
  product, so the two agree as soon as `s ≠ 0`. The clamp gives that for every `σ`, finite or not:
  `w = min(10, max(0.1, σ)) ≥ min(10, 0.1) > 0`, hence `s = 2·w·w > 0`. No finiteness of `d` or of `σ` is used.
-/
import Idealize.ShloMosaic.PureOps.Ideal

noncomputable section

namespace Cert.Rbf

open Idealize.ShloMosaic

/-! ## The float patterns the programs spell, as extended reals -/

/-- The pattern of `-1.0` denotes `-1`. -/
theorem ofBits_neg_one : Ideal.ofBits .f32 0xBF800000#32 = -1 := by
  simp [Ideal.ofBits, Ideal.ieee, -EReal.coe_mul]; norm_num

/-- The pattern of `2.0` denotes a positive number. -/
theorem ofBits_two_pos : 0 < Ideal.ofBits .f32 0x40000000#32 := by
  simp [Ideal.ofBits, Ideal.ieee, -EReal.coe_mul]

/-- The pattern of `10.0`, the clamp's upper end, denotes a positive number. -/
theorem ofBits_ten_pos : 0 < Ideal.ofBits .f32 0x41200000#32 := by
  simp [Ideal.ofBits, Ideal.ieee, -EReal.coe_mul]

/-- The pattern nearest `0.1`, the clamp's lower end, denotes a positive number (`13421773 · 2⁻²⁷`). -/
theorem ofBits_tenth_pos : 0 < Ideal.ofBits .f32 0x3DCCCCCD#32 := by
  simp [Ideal.ofBits, Ideal.ieee, -EReal.coe_mul]

/-! ## The clamped width and the scale -/

/-- The width clamped into `[0.1, 10]`: `min(10, max(0.1, σ))`. -/
def width (σ : EReal) : EReal :=
  min (Ideal.ofBits .f32 0x41200000#32) (max (Ideal.ofBits .f32 0x3DCCCCCD#32) σ)

/-- The exponent's denominator `2·w·w`, associated as both programs compute it. -/
def scale (σ : EReal) : EReal :=
  Ideal.ofBits .f32 0x40000000#32 * width σ * width σ

theorem width_pos (σ : EReal) : 0 < width σ :=
  lt_min ofBits_ten_pos (lt_max_of_lt_left ofBits_tenth_pos)

theorem scale_pos (σ : EReal) : 0 < scale σ :=
  EReal.mul_pos (EReal.mul_pos ofBits_two_pos (width_pos σ)) (width_pos σ)

theorem scale_ne_zero (σ : EReal) : scale σ ≠ 0 := (scale_pos σ).ne'

/-! ## The law -/

/-- Multiplying by `(−1) / s` is dividing the negation by `s`, for `s ≠ 0`: both are `−(d · s⁻¹)`. -/
theorem mul_neg_one_div (d s : EReal) (hs : s ≠ 0) :
    d * Ideal.div (-1) s = Ideal.div (-d) s := by
  unfold Ideal.div
  rw [if_neg hs, if_neg hs, neg_one_mul, mul_neg, neg_mul]

end Cert.Rbf

end
-- ==== Proof.RbfSpec.lean ====
/-
  The radial-basis kernel matrix as ONE function of the three argument arrays.

  For a batch `b`, a token `n` and a grid point `q`, with `μ = mu[b, n, :]` and `ζ = z[q, :]` points of the plane and
  `σ = sigma[b, n, 0]`:

      G[b, n, q] = exp( −max(‖μ‖² + ‖ζ‖² − 2·⟨μ, ζ⟩, 0) / (2·w·w) ),   w = min(10, max(0.1, σ)).

  The squared distance is spelt through the matrix-product decomposition `‖μ‖² + ‖ζ‖² − 2⟨μ, ζ⟩`, each squared norm a
  sum onto the zero pattern (a reduction's initial value), exactly as both programs spell it: nothing here is
  simplified, so each program's term is this function by unfolding alone, and the single algebraic step — a product
  with `(−1)/s` against a quotient of the negation by `s` — is `exp_mul_coef`.
-/
import proofs.«114646_j25331717112421_2_alg».proof.Proof.RbfScalar
import Idealize.ShloMosaic.Lib.ValueIdx

noncomputable section

open scoped BigOperators

namespace Cert.Rbf

open Idealize.ShloMosaic Idealize.ShloMosaic.ValueIdx

/-! ## One entry, over points of the plane -/

/-- `‖x‖²` of a point of the plane, summed onto the zero pattern. -/
def sqNorm (x : Fin 2 → EReal) : EReal :=
  Ideal.ofBits .f32 0x00000000#32 + ∑ k : Fin 2, x k * x k

/-- `⟨x, y⟩` of two points of the plane. -/
def inner (x y : Fin 2 → EReal) : EReal := ∑ k : Fin 2, x k * y k

/-- The squared distance `‖x‖² + ‖y‖² − 2⟨x, y⟩`, clamped below at the zero pattern. -/
def sqDist (x y : Fin 2 → EReal) : EReal :=
  max (sqNorm x + sqNorm y - Ideal.ofBits .f32 0x40000000#32 * inner x y) (Ideal.ofBits .f32 0x00000000#32)

/-- The Gaussian of the clamped squared distance at width `σ`: `exp(−d / (2·w·w))`. -/
def rbf (x y : Fin 2 → EReal) (σ : EReal) : EReal :=
  Ideal.exp (Ideal.div (-sqDist x y) (scale σ))

/-- The same entry with the quotient taken once per width: `exp(d · ((−1) / (2·w·w)))`. The scale is never zero
    (the width is clamped above a positive number), so the quotient by it is the product with its inverse and the
    sign moves through. -/
theorem exp_mul_coef (x y : Fin 2 → EReal) (σ : EReal) :
    Ideal.exp (sqDist x y * Ideal.div (Ideal.ofBits .f32 0xBF800000#32) (scale σ)) = rbf x y σ := by
  unfold rbf
  rw [ofBits_neg_one, mul_neg_one_div _ _ (scale_ne_zero σ)]

/-! ## The whole array -/

/-- Entry `(b, n, q)` of the kernel matrix: row `(b, n)` of `mu` against row `q` of `z`, at width `sigma[b, n, 0]`. -/
def entry (z : (⟨2, ![4096, 2]⟩ : Shape).Idx → EReal) (mu : (⟨3, ![8, 2048, 2]⟩ : Shape).Idx → EReal)
    (sg : (⟨3, ![8, 2048, 1]⟩ : Shape).Idx → EReal) (b : Fin 8) (n : Fin 2048) (q : Fin 4096) : EReal :=
  rbf (fun k => mu (ix3 b n k)) (fun k => z (ix2 q k)) (sg (ix3 b n (0 : Fin 1)))

/-- The kernel matrix `[8, 2048, 4096]`, index by index. -/
def G (z : (⟨2, ![4096, 2]⟩ : Shape).Idx → EReal) (mu : (⟨3, ![8, 2048, 2]⟩ : Shape).Idx → EReal)
    (sg : (⟨3, ![8, 2048, 1]⟩ : Shape).Idx → EReal) : (⟨3, ![8, 2048, 4096]⟩ : Shape).Idx → EReal :=
  fun i => entry z mu sg (i 0) (i 1) (i 2)

theorem G_ix3 (z : (⟨2, ![4096, 2]⟩ : Shape).Idx → EReal) (mu : (⟨3, ![8, 2048, 2]⟩ : Shape).Idx → EReal)
    (sg : (⟨3, ![8, 2048, 1]⟩ : Shape).Idx → EReal) (b : Fin 8) (n : Fin 2048) (q : Fin 4096) :
    G z mu sg (ix3 b n q) = entry z mu sg b n q := rfl

end Cert.Rbf

end
-- ==== Proof.RefIsRbf.lean ====
/-
  The reference program's result, read one operation at a time, is the kernel matrix `G`.

  The reference computes, for every `(b, n, q)`, the two squared norms by reducing `mu·mu` and `z·z` over the last
  axis, the cross term by contracting `mu` with `z` over that axis, broadcasts the three to `[8, 2048, 4096]`,
  clamps `‖μ‖² + ‖ζ‖² − 2⟨μ, ζ⟩` at zero, negates, divides by `2·w·w` broadcast from `[8, 2048, 1]`, and
  exponentiates. Each broadcast reads its operand at the output index with the broadcast axes dropped, so the
  composed index maps send `(b, n, q)` to row `(b, n)` of `mu`, row `q` of `z` and entry `(b, n, 0)` of `sigma`:
  the five index equations below. After them the two sides are the same term.
-/
import proofs.«114646_j25331717112421_2_alg».proof.Proof.RbfSpec
import proofs.«114646_j25331717112421_2_alg».proof.Proof.Gen.ReferenceIdeal.Read

noncomputable section

open scoped BigOperators

namespace Cert.Rbf.RefSide

open Idealize.ShloMosaic Idealize.ShloMosaic.ValueIdx Cert.ReferenceIdeal Cert.ReferenceIdeal.Read

/-! ## Where each operand is read, for the output index `(b, n, q)` -/

/-- The squared norm of `mu`'s row, broadcast along the grid-point axis, sums row `(b, n)` of `mu`. -/
theorem musq_idx (b : Fin 8) (n : Fin 2048) (q : Fin 4096) (k : Fin 2) :
    idx_main_v4 (idx_main_v5 (idx_main_v8 (ix3 b n q))) k = ix3 b n k :=
  funext fun a => Fin.ext (by match a with | ⟨0, _⟩ => rfl | ⟨1, _⟩ => rfl | ⟨2, _⟩ => rfl)

/-- The squared norm of `z`'s row, broadcast along batch and token, sums row `q` of `z`. -/
theorem zsq_idx (b : Fin 8) (n : Fin 2048) (q : Fin 4096) (k : Fin 2) :
    idx_main_v2 (idx_main_v7 (idx_main_v9 (ix3 b n q))) k = ix2 q k :=
  funext fun a => Fin.ext (by match a with | ⟨0, _⟩ => rfl | ⟨1, _⟩ => rfl)

/-- The contraction's left factor is row `(b, n)` of `mu`. -/
theorem cross_lidx (b : Fin 8) (n : Fin 2048) (q : Fin 4096) (k : Fin 2) :
    lidx_main_v6 (ix3 b n q) k = ix3 b n k :=
  funext fun a => Fin.ext (by match a with | ⟨0, _⟩ => rfl | ⟨1, _⟩ => rfl | ⟨2, _⟩ => rfl)

/-- The contraction's right factor is row `q` of `z`. -/
theorem cross_ridx (b : Fin 8) (n : Fin 2048) (q : Fin 4096) (k : Fin 2) :
    ridx_main_v6 (ix3 b n q) k = ix2 q k :=
  funext fun a => Fin.ext (by match a with | ⟨0, _⟩ => rfl | ⟨1, _⟩ => rfl)

/-- The scale, broadcast along the grid-point axis, is read at `(b, n, 0)`. -/
theorem scale_idx (b : Fin 8) (n : Fin 2048) (q : Fin 4096) :
    idx_main_v20 (ix3 b n q) = ix3 b n (0 : Fin 1) :=
  funext fun a => Fin.ext (by match a with | ⟨0, _⟩ => rfl | ⟨1, _⟩ => rfl | ⟨2, _⟩ => rfl)

/-! ## The reference is `G` -/

/-- One entry of the reference's result is the kernel-matrix entry. -/
theorem ref_entry (z : (⟨S4096x2, .f32⟩ : BufTy).Contents (Elt Ideal)) (mu : (⟨S8x2048x2, .f32⟩ : BufTy).Contents (Elt Ideal))
    (sg : (⟨S8x2048x1, .f32⟩ : BufTy).Contents (Elt Ideal)) (b : Fin 8) (n : Fin 2048) (q : Fin 4096) :
    val_main_v22 (F := Ideal) z mu sg (ix3 b n q) = Cert.Rbf.entry z mu sg b n q := by
  simp only [val_main_v22_apply, val_main_v21_apply, val_main_v16_apply, val_main_v15_apply, val_main_v13_apply,
    val_main_v10_apply, val_main_v8_apply, val_main_v5_apply, val_main_v4_apply, val_main_v3_apply, val_main_cst_2_apply,
    val_main_v9_apply, val_main_v7_apply, val_main_v2_apply, val_main_v1_apply, val_main_cst_1_apply,
    val_main_v12_apply, val_main_v11_apply, val_main_cst_3_apply, val_main_v6_apply,
    val_main_v14_apply, val_main_cst_4_apply,
    val_main_v20_apply, val_main_v19_apply, val_main_v18_apply, val_main_v17_apply, val_main_cst_5_apply,
    val_main_v0_apply, val_main_call0_v4_apply, val_main_call0_v3_apply, val_main_cst_0_apply,
    val_main_call0_v2_apply, val_main_call0_v1_apply, val_main_call0_v0_apply, val_main_cst_apply,
    musq_idx, zsq_idx, cross_lidx, cross_ridx, scale_idx]
  rfl

/-- The reference's result array is `G` of the three argument arrays. -/
theorem ref_eq_G (z : (⟨S4096x2, .f32⟩ : BufTy).Contents (Elt Ideal)) (mu : (⟨S8x2048x2, .f32⟩ : BufTy).Contents (Elt Ideal))
    (sg : (⟨S8x2048x1, .f32⟩ : BufTy).Contents (Elt Ideal)) :
    val_main_v22 (F := Ideal) z mu sg = Cert.Rbf.G z mu sg := by
  funext i
  obtain ⟨b, n, q, rfl⟩ : ∃ (b : Fin 8) (n : Fin 2048) (q : Fin 4096), i = ix3 b n q := ⟨i 0, i 1, i 2, eq_ix3 i⟩
  rw [Cert.Rbf.G_ix3]
  exact ref_entry z mu sg b n q

end Cert.Rbf.RefSide

end
-- ==== Proof.LibColumnBroadcast.lean ====
/-
  A column broadcast across a row axis, read at an index given by coordinates.

  The library reads a broadcast at an index `j` as the operand at `j`'s trailing coordinates with `0` on the
  operand's unit axes, and has the case of ONE ROW `[1, b] → [a, b]` by coordinates. This is the companion case of ONE
  COLUMN `[a, 1] → [a, b]` (a per-row quantity kept with a trailing unit axis and spread along the row): entry
  `(p, c)` of the result is the column's entry in row `p`, whatever `c` is.
-/
import Idealize.ShloMosaic.Lib.ValueLayout

namespace Cert.Layout

open Idealize.ShloMosaic Idealize.ShloMosaic.ValueIdx

variable {α : Type}

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.KernelBlock.lean ====
/-
  One grid point's output block, entry by entry, as a function of the five input blocks.

  At a grid point the body holds a `[2, 1024]` block `zT` of the transposed grid points, the matching `[1, 1024]` block
  `zsq` of their squared norms, a `[1, 1024, 2]` block `mu` of token positions, and two `[1, 1024, 1]` columns: `coef`, the
  precomputed `(−1)/(2·w·w)` per token, and `musq`, the tokens' squared norms. It forms the `[1024, 1024]` cross
  products `mu · zT` on the matrix unit (into a zero accumulator: a plain sum over the two plane coordinates), spreads
  `musq` along rows and `zsq` along columns, clamps `musq + zsq − 2·cross` at zero, scales row `p` by `coef[p]` and
  exponentiates. Entry `(p, q)` therefore depends on row `p` of `mu`, `musq`, `coef` and column `q` of `zT`, `zsq` only.
-/
import proofs.«114646_j25331717112421_2_alg».proof.Proof.RbfSpec
import proofs.«114646_j25331717112421_2_alg».proof.Proof.LibColumnBroadcast
import proofs.«114646_j25331717112421_2_alg».proof.Proof.Gen.KernelIdeal.Skeleton
import Idealize.ShloMosaic.Lib.ValueLayout
import Idealize.ShloMosaic.PureOps.Ideal.Laws

noncomputable section

open scoped BigOperators

namespace Cert.Rbf.KernelSide

open Idealize.ShloMosaic Idealize.ShloMosaic.ValueIdx Cert.KernelIdeal Cert.KernelIdeal.Gen Cert.Layout

/-! ## The matrix product's operand indices

  The product contracts axis 1 of the `[1024, 2]` left operand with axis 0 of the `[2, 1024]` right operand, no batch
  axis: at output `(p, q)` and contraction coordinate `k` it reads the left operand at `(p, k)` and the right at `(k, q)`. -/

/-- The left operand's row is the output's row. -/
theorem lhs_row (j : S1024x1024.Idx) (k : dot_S1024x2_S2x1024_S1024x1024_1_0_0_1_n_n.contr.Idx) :
    (dot_S1024x2_S2x1024_S1024x1024_1_0_0_1_n_n.lhsIdx j k 0).val = (j 0).val := by
  unfold DotDims.lhsIdx
  rw [dif_neg (show ¬(0 : Fin S1024x2.rank) ∈ dot_S1024x2_S2x1024_S1024x1024_1_0_0_1_n_n.lhsBatch by decide), dif_pos (show (0 : Fin S1024x2.rank) ∈ dot_S1024x2_S2x1024_S1024x1024_1_0_0_1_n_n.lhsNonContracting by decide)]
  rfl

/-- The left operand's column is the contraction coordinate. -/
theorem lhs_contr (j : S1024x1024.Idx) (k : dot_S1024x2_S2x1024_S1024x1024_1_0_0_1_n_n.contr.Idx) :
    (dot_S1024x2_S2x1024_S1024x1024_1_0_0_1_n_n.lhsIdx j k 1).val = (k ⟨0, by decide⟩).val :=
  dot_S1024x2_S2x1024_S1024x1024_1_0_0_1_n_n.lhsIdx_val_of_single rfl j k

/-- The right operand's row is the contraction coordinate. -/
theorem rhs_contr (j : S1024x1024.Idx) (k : dot_S1024x2_S2x1024_S1024x1024_1_0_0_1_n_n.contr.Idx) :
    (dot_S1024x2_S2x1024_S1024x1024_1_0_0_1_n_n.rhsIdx j k 0).val = (k ⟨0, by decide⟩).val :=
  dot_S1024x2_S2x1024_S1024x1024_1_0_0_1_n_n.rhsIdx_val_of_single rfl j k

/-- The right operand's column is the output's column. -/
theorem rhs_col (j : S1024x1024.Idx) (k : dot_S1024x2_S2x1024_S1024x1024_1_0_0_1_n_n.contr.Idx) :
    (dot_S1024x2_S2x1024_S1024x1024_1_0_0_1_n_n.rhsIdx j k 1).val = (j 1).val := by
  unfold DotDims.rhsIdx
  rw [dif_neg (show ¬(1 : Fin S2x1024.rank) ∈ dot_S1024x2_S2x1024_S1024x1024_1_0_0_1_n_n.rhsBatch by decide), dif_pos (show (1 : Fin S2x1024.rank) ∈ dot_S1024x2_S2x1024_S1024x1024_1_0_0_1_n_n.rhsNonContracting by decide)]
  rfl

/-- The matrix product into a zero accumulator, at `(p, q)`: `∑ₖ l[p, k] · r[k, q]` over the two plane coordinates. -/
theorem matmul_block_apply (l : FVec Ideal S1024x2 .f32) (r : FVec Ideal S2x1024 .f32) (p q : Fin 1024) :
    matmul dot_S1024x2_S2x1024_S1024x1024_1_0_0_1_n_n none l r (constant (F := Ideal) S1024x1024 .f32 0x00000000#32) (ix2 p q)
      = ∑ k : Fin 2, l (ix2 p k) * r (ix2 k q) := by
  simp only [matmul]
  rw [Ideal.matmul_constant_zero_apply, ← Equiv.sum_comp (contrEquiv1 dot_S1024x2_S2x1024_S1024x1024_1_0_0_1_n_n 2 rfl rfl).symm]
  refine Finset.sum_congr rfl fun k _ => ?_
  have hk := contrEquiv1_symm_val dot_S1024x2_S2x1024_S1024x1024_1_0_0_1_n_n 2 rfl rfl k
  have el : dot_S1024x2_S2x1024_S1024x1024_1_0_0_1_n_n.lhsIdx (ix2 p q) ((contrEquiv1 dot_S1024x2_S2x1024_S1024x1024_1_0_0_1_n_n 2 rfl rfl).symm k) = ix2 p k := funext fun a => Fin.ext (by
    match a with
    | ⟨0, _⟩ => exact lhs_row _ _
    | ⟨1, _⟩ => exact (lhs_contr _ _).trans hk)
  have er : dot_S1024x2_S2x1024_S1024x1024_1_0_0_1_n_n.rhsIdx (ix2 p q) ((contrEquiv1 dot_S1024x2_S2x1024_S1024x1024_1_0_0_1_n_n 2 rfl rfl).symm k) = ix2 k q := funext fun a => Fin.ext (by
    match a with
    | ⟨0, _⟩ => exact (rhs_contr _ _).trans hk
    | ⟨1, _⟩ => exact rhs_col _ _)
  rw [el, er]

/-! ## The block -/

/-- Entry `(p, q)` of the stored block: the exponential of the clamped `musq[p] + zsq[q] − 2·∑ₖ mu[p, k]·zT[k, q]`
    times `coef[p]`. -/
theorem pay_apply (x0 : Vec Ideal S2x1024 .f32) (x1 : Vec Ideal S1x1024 .f32) (x2 : Vec Ideal S1x1024x2 .f32)
    (x3 x4 : Vec Ideal S1x1024x1 .f32) (u : Fin 1) (p q : Fin 1024) :
    k0_pay1 (F := Ideal) x0 x1 x2 x3 x4 (ix3 u p q)
      = Ideal.exp (max (x4 (ix3 (0 : Fin 1) p (0 : Fin 1)) + x1 (ix2 (0 : Fin 1) q)
            - Ideal.ofBits .f32 0x40000000#32 * ∑ k : Fin 2, x2 (ix3 (0 : Fin 1) p k) * x0 (ix2 k q))
          (Ideal.ofBits .f32 0x00000000#32) * x3 (ix3 (0 : Fin 1) p (0 : Fin 1))) := by
  unfold k0_pay1
  rw [shapeCast_ab_1ab_apply]
  simp only [Idealize.ShloMosaic.exp, mulf_apply, maximumf_apply, subf_apply, addf_apply, broadcast_apply,
    broadcastTo_a1_ab_apply, broadcastTo_1b_ab_apply, matmul_block_apply, shapeCast_1ab_ab_apply, shapeCast_self]
  rfl

/-- THE BLOCK IS A TILE OF THE KERNEL MATRIX. Let the five input blocks hold, at the rows and columns entry `(p, q)`
    reads, what the program prepared for token `(bb, nn)` and grid point `qq`: column `q` of `zT` the point's
    coordinates, `zsq[q]` its squared norm, row `p` of `mu` the token's position, `musq[p]` its squared norm and
    `coef[p]` minus one over its scale. Then the stored entry is the kernel-matrix entry `(bb, nn, qq)`: the block's
    clamped squared distance is the specification's, and the product with `(−1)/s` is the quotient of the negation by
    `s` (`exp_mul_coef`). -/
theorem block_entry (z : FVec Ideal S4096x2 .f32) (mu : FVec Ideal S8x2048x2 .f32) (sg : FVec Ideal S8x2048x1 .f32)
    (x0 : Vec Ideal S2x1024 .f32) (x1 : Vec Ideal S1x1024 .f32) (x2 : Vec Ideal S1x1024x2 .f32)
    (x3 x4 : Vec Ideal S1x1024x1 .f32) (j : S1x1024x1024.Idx) (p q : Fin 1024)
    (hp : (j 1).val = p.val) (hq : (j 2).val = q.val) (bb : Fin 8) (nn : Fin 2048) (qq : Fin 4096)
    (h0 : ∀ k : Fin 2, x0 (ix2 k q) = z (ix2 qq k))
    (h1 : x1 (ix2 (0 : Fin 1) q) = sqNorm (fun k => z (ix2 qq k)))
    (h2 : ∀ k : Fin 2, x2 (ix3 (0 : Fin 1) p k) = mu (ix3 bb nn k))
    (h3 : x3 (ix3 (0 : Fin 1) p (0 : Fin 1))
        = Ideal.div (Ideal.ofBits .f32 0xBF800000#32) (scale (sg (ix3 bb nn (0 : Fin 1)))))
    (h4 : x4 (ix3 (0 : Fin 1) p (0 : Fin 1)) = sqNorm (fun k => mu (ix3 bb nn k))) :
    k0_pay1 (F := Ideal) x0 x1 x2 x3 x4 j = entry z mu sg bb nn qq := by
  have hu : (j 0).val < 1 := (j 0).isLt
  have hj : j = ix3 (0 : Fin 1) p q := funext fun a => Fin.ext (by
    match a with
    | ⟨0, _⟩ => show (j 0).val = 0; omega
    | ⟨1, _⟩ => exact hp
    | ⟨2, _⟩ => exact hq)
  subst hj
  rw [pay_apply, h1, h3, h4]
  simp only [h0, h2]
  exact exp_mul_coef (fun k => mu (ix3 bb nn k)) (fun k => z (ix2 qq k)) (sg (ix3 bb nn (0 : Fin 1)))

end Cert.Rbf.KernelSide

end
-- ==== Proof.FoundArrays.lean ====
/-
  What the five input windows' arrays hold when the kernel is launched, read at coordinates.

  Before the launch the program prepares, from `z [4096, 2]`, `mu [8, 2048, 2]` and `sigma [8, 2048, 1]`:
    • `zT [2, 4096]`, the transpose of `z`:                           `zT[k, q] = z[q, k]`;
    • `zsq [1, 4096]`, the squared norms of `z`'s rows kept as a row:   `zsq[0, q] = ‖z[q, :]‖²`;
    • `musq [8, 2048, 1]`, those of `mu`'s rows kept as a column:        `musq[b, n, 0] = ‖mu[b, n, :]‖²`;
    • `coef [8, 2048, 1]`, minus one over the scale of the clamped width: `coef[b, n, 0] = (−1) / (2·w·w)`;
  and passes `mu` itself unchanged. Each squared norm is a reduction over the last axis from the zero pattern, so it is
  the specification's `sqNorm` of the row; the coefficient is a quotient of broadcast scalars and the clamp,
  entry by entry, so it is `(−1) / scale` of the width at that token.
-/
import proofs.«114646_j25331717112421_2_alg».proof.Proof.RbfSpec
import proofs.«114646_j25331717112421_2_alg».proof.Proof.Gen.KernelIdeal.Frame
import Idealize.ShloMosaic.Lib.StableHlo.Run
import Idealize.ShloMosaic.Lib.ValueLayout
import Idealize.ShloMosaic.PureOps.Ideal.Laws

noncomputable section

open scoped BigOperators

namespace Cert.Rbf.KernelSide

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-! ## The arrays as terms of the arguments -/

/-- The width clamped into `[0.1, 10]`, as the called clamp computes it over the whole `[8, 2048, 1]` array. -/
def clampedWidths (sg : FVec Ideal S8x2048x1 .f32) : FVec Ideal S8x2048x1 .f32 :=
  minimumf (broadcastInDim S8x2048x1 ![] bcast_S_S8x2048x1 (id (constant (F := Ideal) S_ .f32 0x41200000#32)))
    (maximumf (broadcastInDim S8x2048x1 ![] bcast_S_S8x2048x1 (id (constant (F := Ideal) S_ .f32 0x3DCCCCCD#32))) sg)

theorem zT_found (c : Dev nD) :
    (V m c main_v9 : S2x4096.Idx → EReal)
      = transpose S2x4096 [1, 0] (m ((c : Thread nD τ).loc main_arg0)) transposes_S4096x2_S2x4096_1_0 := by
  dsimp only [Gen.V]
  simp only [Gen.hostOps0, Gen.hostOps0_1, Gen.hostOps0_2, List.flatten_cons, List.flatten_nil, List.append_nil, List.cons_append, List.nil_append]
  after_results

theorem zsq_found (c : Dev nD) :
    (V m c main_v12 : S1x4096.Idx → EReal)
      = broadcastInDim S1x4096 ![1] bcast_S4096_S1x4096_1
          (Host.reduceAdd (mulf (m ((c : Thread nD τ).loc main_arg0)) (m ((c : Thread nD τ).loc main_arg0)))
            (constant (F := Ideal) S_ .f32 0x00000000#32) reducesTo_S4096x2_S4096_d1 h_S_) := by
  dsimp only [Gen.V]
  simp only [Gen.hostOps0, Gen.hostOps0_1, Gen.hostOps0_2, List.flatten_cons, List.flatten_nil, List.append_nil, List.cons_append, List.nil_append]
  after_results

theorem musq_found (c : Dev nD) :
    (V m c main_v8 : S8x2048x1.Idx → EReal)
      = broadcastInDim S8x2048x1 ![0, 1] bcast_S8x2048_S8x2048x1_0_1
          (Host.reduceAdd (mulf (m ((c : Thread nD τ).loc main_arg1)) (m ((c : Thread nD τ).loc main_arg1)))
            (constant (F := Ideal) S_ .f32 0x00000000#32) reducesTo_S8x2048x2_S8x2048_d2 h_S_) := by
  dsimp only [Gen.V]
  simp only [Gen.hostOps0, Gen.hostOps0_1, Gen.hostOps0_2, List.flatten_cons, List.flatten_nil, List.append_nil, List.cons_append, List.nil_append]
  after_results

theorem coef_found (c : Dev nD) :
    (V m c main_v5 : S8x2048x1.Idx → EReal)
      = Host.divf (broadcastInDim S8x2048x1 ![] bcast_S_S8x2048x1 (constant (F := Ideal) S_ .f32 0xBF800000#32))
          (mulf (mulf (broadcastInDim S8x2048x1 ![] bcast_S_S8x2048x1 (constant (F := Ideal) S_ .f32 0x40000000#32))
              (clampedWidths (m ((c : Thread nD τ).loc main_arg2))))
            (clampedWidths (m ((c : Thread nD τ).loc main_arg2)))) := by
  dsimp only [Gen.V]
  simp only [Gen.hostOps0, Gen.hostOps0_1, Gen.hostOps0_2, List.flatten_cons, List.flatten_nil, List.append_nil, List.cons_append, List.nil_append]
  after_results
  rfl

/-! ## The same, over any arrays, read at coordinates -/

/-- A scalar broadcast to `[8, 2048, 1]` reads the scalar everywhere. -/
theorem bcast_scalar_apply (y : S_.Idx → EReal) (i : S8x2048x1.Idx) :
    broadcastInDim S8x2048x1 ![] bcast_S_S8x2048x1 y i = y ix0 :=
  broadcastInDim_apply _ bcast_S_S8x2048x1 y i ix0 (fun a => a.elim0)

/-- The transposed grid points: `zT[k, q] = z[q, k]`. -/
theorem zT_apply (z : FVec Ideal S4096x2 .f32) (k : Fin 2) (q : Fin 4096) :
    transpose S2x4096 [1, 0] z transposes_S4096x2_S2x4096_1_0 (ix2 k q) = z (ix2 q k) :=
  transpose_ix2_apply z transposes_S4096x2_S2x4096_1_0 k q

/-- The grid points' squared norms, kept as a row: `zsq[0, q] = ‖z[q, :]‖²`. -/
theorem zsq_apply (z : FVec Ideal S4096x2 .f32) (u : Fin 1) (q : Fin 4096) :
    broadcastInDim S1x4096 ![1] bcast_S4096_S1x4096_1
        (Host.reduceAdd (mulf z z) (constant (F := Ideal) S_ .f32 0x00000000#32) reducesTo_S4096x2_S4096_d1 h_S_) (ix2 u q)
      = sqNorm (fun k => z (ix2 q k)) := by
  rw [broadcastInDim_apply _ bcast_S4096_S1x4096_1 _ (ix2 u q) (ix1 q) (fun a => match a with
    | ⟨0, _⟩ => by show q.val = if (4096 : Nat) = 1 then 0 else q.val; rw [if_neg (by decide)])]
  simp only [Host.reduceAdd, Ideal.hostReduceAdd_def]
  rw [Ideal.hostReduceAdd_single reducesTo_S4096x2_S4096_d1 (by decide)]
  unfold sqNorm
  refine congrArg (_ + ·) (Finset.sum_congr rfl fun k _ => ?_)
  rw [mulf_apply]
  exact congrArg (fun t => z t * z t) (funext fun a => Fin.ext (by match a with | ⟨0, _⟩ => rfl | ⟨1, _⟩ => rfl))

/-- The tokens' squared norms, kept as a column: `musq[b, n, 0] = ‖mu[b, n, :]‖²`. -/
theorem musq_apply (mu : FVec Ideal S8x2048x2 .f32) (b : Fin 8) (n : Fin 2048) (u : Fin 1) :
    broadcastInDim S8x2048x1 ![0, 1] bcast_S8x2048_S8x2048x1_0_1
        (Host.reduceAdd (mulf mu mu) (constant (F := Ideal) S_ .f32 0x00000000#32) reducesTo_S8x2048x2_S8x2048_d2 h_S_) (ix3 b n u)
      = sqNorm (fun k => mu (ix3 b n k)) := by
  rw [broadcastInDim_apply _ bcast_S8x2048_S8x2048x1_0_1 _ (ix3 b n u) (ix2 b n) (fun a => match a with
    | ⟨0, _⟩ => by show b.val = if (8 : Nat) = 1 then 0 else b.val; rw [if_neg (by decide)]
    | ⟨1, _⟩ => by show n.val = if (2048 : Nat) = 1 then 0 else n.val; rw [if_neg (by decide)])]
  simp only [Host.reduceAdd, Ideal.hostReduceAdd_def]
  rw [Ideal.hostReduceAdd_single reducesTo_S8x2048x2_S8x2048_d2 (by decide)]
  unfold sqNorm
  refine congrArg (_ + ·) (Finset.sum_congr rfl fun k _ => ?_)
  rw [mulf_apply]
  exact congrArg (fun t => mu t * mu t) (funext fun a => Fin.ext (by match a with | ⟨0, _⟩ => rfl | ⟨1, _⟩ => rfl | ⟨2, _⟩ => rfl))

/-- The coefficient column: `coef[b, n, 0] = (−1) / scale(sigma[b, n, 0])`. -/
theorem coef_apply (sg : FVec Ideal S8x2048x1 .f32) (i : S8x2048x1.Idx) :
    Host.divf (broadcastInDim S8x2048x1 ![] bcast_S_S8x2048x1 (constant (F := Ideal) S_ .f32 0xBF800000#32))
        (mulf (mulf (broadcastInDim S8x2048x1 ![] bcast_S_S8x2048x1 (constant (F := Ideal) S_ .f32 0x40000000#32))
            (clampedWidths sg)) (clampedWidths sg)) i
      = Ideal.div (Ideal.ofBits .f32 0xBF800000#32) (scale (sg i)) := by
  unfold clampedWidths
  simp only [Host.divf, mulf_apply, minimumf_apply, maximumf_apply, bcast_scalar_apply]
  rfl

end Cert.Rbf.KernelSide

end
-- ==== Proof.KernelMatrixRun.lean ====
/-
  From the grid's blocks to the whole array: the kernel's result is the kernel matrix `G`.

  The grid has `8 × 2 × 4 = 64` points `(b, ni, mi)`. Point `(b, ni, mi)` writes the `[1, 1024, 1024]` block of the result
  at block index `(b, ni, mi)`: batch `b`, tokens `1024·ni … 1024·ni + 1023`, grid points `1024·mi … 1024·mi + 1023`. It
  reads the blocks of `zT` and `zsq` at column block `mi` and the blocks of `mu`, `coef` and `musq` at `(b, ni)`. So entry
  `(u, p, q)` of what it writes is built from exactly the rows and columns that array entry
  `(b, 1024·ni + p, 1024·mi + q)` of the kernel matrix is built from: the block is that tile of `G`. The 64 blocks tile
  the array (every index lies in the block of `(i₀, i₁ / 1024, i₂ / 1024)`), hence the array ends holding `G`.
-/
import proofs.«114646_j25331717112421_2_alg».proof.Proof.KernelBlock
import proofs.«114646_j25331717112421_2_alg».proof.Proof.FoundArrays
import proofs.«114646_j25331717112421_2_alg».proof.Proof.Gen.KernelIdeal.Value

noncomputable section

open scoped BigOperators

namespace Cert.Rbf.KernelSide

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The index maps over the grid -/

/-- Decided over the 64 points: `zT` and `zsq` move with the result's last block index, `mu`, `coef` and `musq` with its
    first two, every other block index is `0`, and the result's block indices stay in `8 × 2 × 4`. -/
theorem tile_facts : ∀ t : Fin cfg0.N,
    win0_0.index t (0 : Fin 2) = 0 ∧ win0_0.index t (1 : Fin 2) = win0_5.index t (2 : Fin 3)
    ∧ win0_1.index t (0 : Fin 2) = 0 ∧ win0_1.index t (1 : Fin 2) = win0_5.index t (2 : Fin 3)
    ∧ win0_2.index t (0 : Fin 3) = win0_5.index t (0 : Fin 3) ∧ win0_2.index t (1 : Fin 3) = win0_5.index t (1 : Fin 3)
    ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) ≤ 7 ∧ win0_5.index t (1 : Fin 3) ≤ 1 ∧ win0_5.index t (2 : Fin 3) ≤ 3 :=
  (by decide +kernel : ∀ t : Fin grid0.N, _)

/-- Every block index of the `8 × 2 × 4` box is some point's. -/
theorem tile_onto : ∀ (q0 : Fin 8) (q1 : Fin 2) (q2 : Fin 4), ∃ t : Fin cfg0.N, win0_5.index t = ![q0.val, q1.val, q2.val] :=
  (by decide +kernel : ∀ (q0 : Fin 8) (q1 : Fin 2) (q2 : Fin 4), ∃ t : Fin grid0.N, win0_5.index t = ![q0.val, q1.val, q2.val])

/-! ## What a point writes back -/

/-- Point `t` writes back block `t` of `G` of the three argument arrays. -/
theorem flushed_eq (c : Dev nD) (t : Fin cfg0.N) :
    (dats m 0 c).flushed 5 t = ((cfg0.win 5).blk t).view.read (Elt Ideal) (G (m ((c : Thread nD τ).loc main_arg0)) (m ((c : Thread nD τ).loc main_arg1)) (m ((c : Thread nD τ).loc main_arg2))) := by
  rw [Cert.KernelIdeal.Value.flushed5]
  unfold out0_5
  rw [View.canon_unit_zero zeros3]
  simp only [View.ld_unit_zero (S := S2x1024) zeros2, View.ld_unit_zero (S := S1x1024) zeros2,
    View.ld_unit_zero (S := S1x1024x2) zeros3, View.ld_unit_zero (S := S1x1024x1) zeros3]
  obtain ⟨f00, f01, f10, f11, f20, f21, f22, f30, f31, f32, f40, f41, f42, b0, b1, b2⟩ := tile_facts t
  funext jj
  have hu : (jj 0).val < 1 := (jj 0).isLt
  have hp : (jj 1).val < 1024 := (jj 1).isLt
  have hq : (jj 2).val < 1024 := (jj 2).isLt
  -- the array index of block entry `jj`: block index × block size + the coordinate inside the block, per axis
  have ei : ((cfg0.win 5).blk t).view.emb jj = ix3 (⟨win0_5.index t (0 : Fin 3) * 1 + 1 * (jj 0).val, by omega⟩ : Fin 8) (⟨win0_5.index t (1 : Fin 3) * 1024 + 1 * (jj 1).val, by omega⟩ : Fin 2048) (⟨win0_5.index t (2 : Fin 3) * 1024 + 1 * (jj 2).val, by omega⟩ : Fin 4096) :=
    funext fun a => Fin.ext (by match a with | ⟨0, _⟩ => rfl | ⟨1, _⟩ => rfl | ⟨2, _⟩ => rfl)
  show k0_pay1 (iblk m c 0 t) (iblk m c 1 t) (iblk m c 2 t) (iblk m c 3 t) (iblk m c 4 t) ((cfg0.win 5).xinj (grid0.coords t) jj)
    = G (m ((c : Thread nD τ).loc main_arg0)) (m ((c : Thread nD τ).loc main_arg1)) (m ((c : Thread nD τ).loc main_arg2)) (((cfg0.win 5).blk t).view.emb jj)
  rw [ei, G_ix3]
  refine block_entry (m ((c : Thread nD τ).loc main_arg0)) (m ((c : Thread nD τ).loc main_arg1)) (m ((c : Thread nD τ).loc main_arg2)) (iblk m c 0 t) (iblk m c 1 t) (iblk m c 2 t) (iblk m c 3 t) (iblk m c 4 t)
    ((cfg0.win 5).xinj (grid0.coords t) jj) (⟨(jj 1).val, hp⟩ : Fin 1024) (⟨(jj 2).val, hq⟩ : Fin 1024) rfl rfl (⟨win0_5.index t (0 : Fin 3) * 1 + 1 * (jj 0).val, by omega⟩ : Fin 8) (⟨win0_5.index t (1 : Fin 3) * 1024 + 1 * (jj 1).val, by omega⟩ : Fin 2048) (⟨win0_5.index t (2 : Fin 3) * 1024 + 1 * (jj 2).val, by omega⟩ : Fin 4096) ?_ ?_ ?_ ?_ ?_
  · -- column `q` of the `zT` block is grid point `1024·mi + q`
    intro k
    show V m c main_v9 (((cfg0.win 0).blk t).view.emb (ix2 k (⟨(jj 2).val, hq⟩ : Fin 1024))) = _
    have e : ((cfg0.win 0).blk t).view.emb (ix2 k (⟨(jj 2).val, hq⟩ : Fin 1024)) = ix2 k (⟨win0_5.index t (2 : Fin 3) * 1024 + 1 * (jj 2).val, by omega⟩ : Fin 4096) := funext fun a => Fin.ext (by
      match a with
      | ⟨0, _⟩ => show win0_0.index t (0 : Fin 2) * 2 + 1 * k.val = k.val; omega
      | ⟨1, _⟩ => show win0_0.index t (1 : Fin 2) * 1024 + 1 * (jj 2).val = win0_5.index t (2 : Fin 3) * 1024 + 1 * (jj 2).val; omega)
    rw [e, zT_found]
    exact zT_apply _ k _
  · -- and `zsq` there is its squared norm
    show V m c main_v12 (((cfg0.win 1).blk t).view.emb (ix2 (0 : Fin 1) (⟨(jj 2).val, hq⟩ : Fin 1024))) = _
    have e : ((cfg0.win 1).blk t).view.emb (ix2 (0 : Fin 1) (⟨(jj 2).val, hq⟩ : Fin 1024)) = ix2 (0 : Fin 1) (⟨win0_5.index t (2 : Fin 3) * 1024 + 1 * (jj 2).val, by omega⟩ : Fin 4096) := funext fun a => Fin.ext (by
      match a with
      | ⟨0, _⟩ => show win0_1.index t (0 : Fin 2) * 1 + 1 * 0 = 0; omega
      | ⟨1, _⟩ => show win0_1.index t (1 : Fin 2) * 1024 + 1 * (jj 2).val = win0_5.index t (2 : Fin 3) * 1024 + 1 * (jj 2).val; omega)
    rw [e, zsq_found]
    exact zsq_apply _ (0 : Fin 1) _
  · -- row `p` of the `mu` block is token `(b, 1024·ni + p)`
    intro k
    show V m c main_arg1 (((cfg0.win 2).blk t).view.emb (ix3 (0 : Fin 1) (⟨(jj 1).val, hp⟩ : Fin 1024) k)) = _
    have e : ((cfg0.win 2).blk t).view.emb (ix3 (0 : Fin 1) (⟨(jj 1).val, hp⟩ : Fin 1024) k) = ix3 (⟨win0_5.index t (0 : Fin 3) * 1 + 1 * (jj 0).val, by omega⟩ : Fin 8) (⟨win0_5.index t (1 : Fin 3) * 1024 + 1 * (jj 1).val, by omega⟩ : Fin 2048) k := funext fun a => Fin.ext (by
      match a with
      | ⟨0, _⟩ => show win0_2.index t (0 : Fin 3) * 1 + 1 * 0 = win0_5.index t (0 : Fin 3) * 1 + 1 * (jj 0).val; omega
      | ⟨1, _⟩ => show win0_2.index t (1 : Fin 3) * 1024 + 1 * (jj 1).val = win0_5.index t (1 : Fin 3) * 1024 + 1 * (jj 1).val; omega
      | ⟨2, _⟩ => show win0_2.index t (2 : Fin 3) * 2 + 1 * k.val = k.val; omega)
    rw [e, V_main_arg1 m c]
  · -- `coef` there is minus one over that token's scale
    show V m c main_v5 (((cfg0.win 3).blk t).view.emb (ix3 (0 : Fin 1) (⟨(jj 1).val, hp⟩ : Fin 1024) (0 : Fin 1))) = _
    have e : ((cfg0.win 3).blk t).view.emb (ix3 (0 : Fin 1) (⟨(jj 1).val, hp⟩ : Fin 1024) (0 : Fin 1)) = ix3 (⟨win0_5.index t (0 : Fin 3) * 1 + 1 * (jj 0).val, by omega⟩ : Fin 8) (⟨win0_5.index t (1 : Fin 3) * 1024 + 1 * (jj 1).val, by omega⟩ : Fin 2048) (0 : Fin 1) := funext fun a => Fin.ext (by
      match a with
      | ⟨0, _⟩ => show win0_3.index t (0 : Fin 3) * 1 + 1 * 0 = win0_5.index t (0 : Fin 3) * 1 + 1 * (jj 0).val; omega
      | ⟨1, _⟩ => show win0_3.index t (1 : Fin 3) * 1024 + 1 * (jj 1).val = win0_5.index t (1 : Fin 3) * 1024 + 1 * (jj 1).val; omega
      | ⟨2, _⟩ => show win0_3.index t (2 : Fin 3) * 1 + 1 * 0 = 0; omega)
    rw [e, coef_found]
    exact coef_apply _ _
  · -- and `musq` its squared norm
    show V m c main_v8 (((cfg0.win 4).blk t).view.emb (ix3 (0 : Fin 1) (⟨(jj 1).val, hp⟩ : Fin 1024) (0 : Fin 1))) = _
    have e : ((cfg0.win 4).blk t).view.emb (ix3 (0 : Fin 1) (⟨(jj 1).val, hp⟩ : Fin 1024) (0 : Fin 1)) = ix3 (⟨win0_5.index t (0 : Fin 3) * 1 + 1 * (jj 0).val, by omega⟩ : Fin 8) (⟨win0_5.index t (1 : Fin 3) * 1024 + 1 * (jj 1).val, by omega⟩ : Fin 2048) (0 : Fin 1) := funext fun a => Fin.ext (by
      match a with
      | ⟨0, _⟩ => show win0_4.index t (0 : Fin 3) * 1 + 1 * 0 = win0_5.index t (0 : Fin 3) * 1 + 1 * (jj 0).val; omega
      | ⟨1, _⟩ => show win0_4.index t (1 : Fin 3) * 1024 + 1 * (jj 1).val = win0_5.index t (1 : Fin 3) * 1024 + 1 * (jj 1).val; omega
      | ⟨2, _⟩ => show win0_4.index t (2 : Fin 3) * 1 + 1 * 0 = 0; omega)
    rw [e, musq_found]
    exact musq_apply _ _ _ (0 : Fin 1)

/-! ## The blocks tile the array -/

/-- An index of the array is in point `t`'s block iff each coordinate is in the block's range on its axis. -/
theorem mem_blk (t : Fin cfg0.N) (i : S8x2048x4096.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v13).slice (win0_5.rect t)).set ↔ _
  rw [View.set_slice_whole, Rect.mem_set_unit]
  exact Iff.rfl

/-- Every index of the array lies in the block of the point `(i₀, i₁ / 1024, i₂ / 1024)`. -/
theorem covered (i : S8x2048x4096.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 4096 := (i 2).isLt
  obtain ⟨t, ht⟩ := tile_onto ⟨(i 0).val, hi0⟩ ⟨(i 1).val / 1024, by omega⟩ ⟨(i 2).val / 1024, by omega⟩
  have q0 : win0_5.index t (0 : Fin 3) = (i 0).val := congrFun ht 0
  have q1 : win0_5.index t (1 : Fin 3) = (i 1).val / 1024 := congrFun ht 1
  have q2 : win0_5.index t (2 : Fin 3) = (i 2).val / 1024 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-! ## The array, and the run -/

/-- After the run the result array is `G` of the three argument arrays. -/
theorem final (c : Dev nD) : (dats m 0 c).arrAt 5 cfg0.N = G (m ((c : Thread nD τ).loc main_arg0)) (m ((c : Thread nD τ).loc main_arg1)) (m ((c : Thread nD τ).loc main_arg2)) :=
  (dats m 0 c).arrAt_eq_of_cover 5 (G (m ((c : Thread nD τ).loc main_arg0)) (m ((c : Thread nD τ).loc main_arg1)) (m ((c : Thread nD τ).loc main_arg2))) (fun t _ => flushed_eq m c t) covered

/-- Every weakly fair execution of the kernel program terminates with the result at `G` of the arguments and the
    arguments unchanged. -/
theorem run : θ_run defs (onTc (τ := τ) (main (F := Ideal))) ⟨m, fun _ => 0, ρ⟩ fun r => ∀ c : Dev nD,
      r.2.mem ((c : Thread nD τ).loc main_v13) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Rbf.KernelSide

end
-- ==== Proof.lean ====
/-
  A radial-basis kernel matrix: for `z [4096, 2]`, `mu [8, 2048, 2]` and `sigma [8, 2048, 1]`,

      out[b, n, q] = exp( −max(‖mu[b,n]‖² + ‖z[q]‖² − 2·⟨mu[b,n], z[q]⟩, 0) / (2·w·w) ),   w = min(10, max(0.1, sigma[b,n,0])).

  The reference computes this array whole. The kernel prepares, outside its grid, the transposed grid points, the two
  families of squared norms and the coefficient `(−1)/(2·w·w)` per token, and then fills the result tile by tile over an
  `8 × 2 × 4` grid: each `1024 × 1024` tile is the exponential of the clamped squared distances times the row's
  coefficient, the cross terms a matrix product over the two plane coordinates.

  On the extended reals the two agree entry by entry, for ALL inputs: sums, products and the clamp are the same
  operations in the same order on both sides; a matrix product into a zero accumulator and a host contraction are one
  sum; and the only rearrangement — multiplying by `(−1)/s` where the reference divides the negation by `s` — is valid
  because `s = 2·w·w` is never zero, the width being clamped above the positive pattern of `0.1`
  (Proof/RbfScalar.lean). So the precondition (finite inputs) is not used by the value claim.

  The modules: Proof/RbfScalar.lean (the four float patterns, `s > 0`, the law), Proof/RbfSpec.lean (the kernel matrix
  `G` as one function of the arguments), Proof/RefIsRbf.lean (the reference's result is `G`), Proof/KernelBlock.lean (one
  tile entry from the five input blocks), Proof/FoundArrays.lean (what the prepared arrays hold),
  Proof/KernelMatrixRun.lean (the tiles cover the array: the kernel's result is `G`). The frames of the two kernel
  programs and the runs of both sides are the generated modules'.
-/
import proofs.«114646_j25331717112421_2_alg».proof.Defs
import proofs.«114646_j25331717112421_2_alg».proof.Proof.Gen.Kernel
import proofs.«114646_j25331717112421_2_alg».proof.Proof.Gen.Kernel.Skeleton
import proofs.«114646_j25331717112421_2_alg».proof.Proof.Gen.Kernel.Launch
import proofs.«114646_j25331717112421_2_alg».proof.Proof.Gen.Kernel.Points
import proofs.«114646_j25331717112421_2_alg».proof.Proof.Gen.Kernel.Frame
import proofs.«114646_j25331717112421_2_alg».proof.Proof.Gen.KernelIdeal
import proofs.«114646_j25331717112421_2_alg».proof.Proof.Gen.KernelIdeal.Skeleton
import proofs.«114646_j25331717112421_2_alg».proof.Proof.Gen.KernelIdeal.Launch
import proofs.«114646_j25331717112421_2_alg».proof.Proof.Gen.KernelIdeal.Points
import proofs.«114646_j25331717112421_2_alg».proof.Proof.Gen.KernelIdeal.Frame
import proofs.«114646_j25331717112421_2_alg».proof.Proof.Gen.ReferenceIdeal
import proofs.«114646_j25331717112421_2_alg».proof.Proof.Gen.Pre_finite_inputs
import proofs.«114646_j25331717112421_2_alg».proof.Proof.Gen.KernelIdeal.Value
import proofs.«114646_j25331717112421_2_alg».proof.Proof.Gen.ReferenceIdeal.Run
import proofs.«114646_j25331717112421_2_alg».proof.Proof.Gen.ReferenceIdeal.Read
import proofs.«114646_j25331717112421_2_alg».proof.Proof.RefIsRbf
import proofs.«114646_j25331717112421_2_alg».proof.Proof.KernelMatrixRun
import Idealize.ShloMosaic.Adequacy
import Idealize.ShloMosaic.Init

noncomputable section

namespace Cert.Proof

open Idealize.ShloMosaic Idealize.ShloMosaic.TcCoe Idealize.SL.Sem

/-! ## The frames -/

/-- The kernel as printed terminates, faults nowhere and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## Equal results -/

/-- From memories that agree on the three arguments, the kernel ends with its result at `G` of them
    (Proof/KernelMatrixRun.lean) and the reference at its composed term, which is `G` of the same arrays
    (Proof/RefIsRbf.lean). -/
theorem algebraic : Cert.algebraic_KernelIdeal_ReferenceIdeal := by
  intro m ρ m' ρ' _ hagree
  refine ⟨fun c => Cert.Rbf.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Rbf.KernelSide.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.Rbf.RefSide.ref_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
